-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S2x1600000 32) (main_arg2 : FVec F S256x64 .f32) (main_arg3 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 49
  | .vmem => 7
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x64, .f32⟩
  | .hbm, ⟨39, _⟩ => ⟨S_, .f32⟩
  | .hbm, ⟨40, _⟩ => ⟨S100000x64, .f32⟩
  | .hbm, ⟨41, _⟩ => ⟨S1700000x1, .i32⟩
  | .hbm, ⟨42, _⟩ => ⟨S100000x64, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.Consts.lean ====
/-
  The two float constants the degree normalisation spells, as the extended reals their words denote:
  `+0.0` is `0`, and `0x2B8CBCCC` (the single-precision word nearest `1e-12`) is the positive real `9223372 · 2⁻⁶³`.
  Only its sign matters below: a maximum with a positive real is a positive real or `+∞`.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- The word `0x2B8CBCCC` denotes `9223372 · 2⁻⁶³`. -/
theorem ofBits_tiny : Ideal.ofBits .f32 0x2B8CBCCC#32 = (((9223372 : ℝ) * (2 : ℝ) ^ (-63 : ℤ) : ℝ) : EReal) := by
  simp [Ideal.ofBits, Ideal.ieee, -EReal.coe_mul]

/-- That real is positive. -/
theorem tiny_pos : (0 : ℝ) < (9223372 : ℝ) * (2 : ℝ) ^ (-63 : ℤ) := by positivity

end Cert.Consts

end
-- ==== Proof.Algebra.lean ====
/-
  The algebra that joins the two programs, over the extended reals.

  Both programs aggregate, for every node `j`, the messages of the edges whose target is `j`. The reference weighs the
  message of edge `e` by `dis[row e] · dis[col e]` before summing; the kernel weighs it by `dis[row e]` only, sums, and
  multiplies the sum of node `j` by `dis[j]` afterwards. An edge's message lands in node `j` exactly when `col e = j`,
  so inside node `j`'s sum the factor `dis[col e]` is the constant `dis[j]`, and the two sides differ by moving that
  constant across the sum. On the extended reals a factor moves across a sum when it is a nonnegative real
  (`x · (a + b) = x · a + x · b` for `0 ≤ x < +∞`, whatever `a` and `b`), and `dis[j]` is one: it is `0`, or the
  reciprocal square root of a maximum with a positive real.
-/
import proofs.«149455_j3478923510413_2_alg».proof.Proof.LibRowIndex
import proofs.«149455_j3478923510413_2_alg».proof.Proof.Consts
import Idealize.ShloMosaic.PureOps.Ideal

noncomputable section

open scoped BigOperators

namespace Cert.Algebra

open Idealize.ShloMosaic Idealize.ShloMosaic.ValueIdx Cert.Lib.RowIndex

/-! ## A nonnegative real factor moves across a finite sum -/

theorem mul_sum_of_nonneg {ι : Type*} (s : Finset ι) (f : ι → EReal) {x : EReal} (h0 : 0 ≤ x) (ht : x ≠ ⊤) :
    x * ∑ u ∈ s, f u = ∑ u ∈ s, x * f u := by
  classical
  induction s using Finset.induction_on with
  | empty => simp
  | insert a s ha ih =>
    rw [Finset.sum_insert ha, Finset.sum_insert ha, EReal.left_distrib_of_nonneg_of_ne_top h0 ht, ih]

/-! ## The scale of a node is a nonnegative real -/

/-- Whichever way the comparison with the degree goes — `0`, or the reciprocal square root of a value that is at least a
    positive real `ε` — the scale is a nonnegative real. -/
theorem scale_bounds (cbit : BitVec 1) (deg : EReal) (ε : ℝ) (hε : 0 < ε) :
    0 ≤ Scalar.select cbit (Ideal.rsqrt (max deg (ε : EReal))) (0 : EReal)
      ∧ Scalar.select cbit (Ideal.rsqrt (max deg (ε : EReal))) (0 : EReal) ≠ ⊤ := by
  unfold Scalar.select
  split
  · have hle : (ε : EReal) ≤ max deg (ε : EReal) := le_max_right _ _
    generalize max deg (ε : EReal) = y at hle
    induction y using EReal.rec with
    | bot => exact absurd hle (by simp)
    | top =>
      show (0 : EReal) ≤ 0 ∧ (0 : EReal) ≠ ⊤
      exact ⟨le_refl _, EReal.zero_ne_top⟩
    | coe r =>
      have hr : ε ≤ r := by exact_mod_cast hle
      have hr0 : ¬ r < 0 := by linarith
      have hr1 : ¬ r = 0 := by linarith
      have hrs : Ideal.rsqrt (r : EReal) = (((Real.sqrt r)⁻¹ : ℝ) : EReal) := by
        show (if r < 0 then (⊥ : EReal) else if r = 0 then ⊤ else (((Real.sqrt r)⁻¹ : ℝ) : EReal)) = _
        rw [if_neg hr0, if_neg hr1]
      rw [hrs]
      refine ⟨?_, EReal.coe_ne_top _⟩
      have : (0 : ℝ) ≤ (Real.sqrt r)⁻¹ := inv_nonneg.mpr (Real.sqrt_nonneg r)
      exact_mod_cast this
  · exact ⟨le_refl _, by simp⟩

/-! ## A row number already inside the array is its own wrapped, clamped row -/

/-- Python-style wrapping of a negative index adds the extent; a nonnegative index is left alone. -/
theorem wrap_of_nonneg (v n : BitVec 32) (h : 0 ≤ v.toInt) :
    Scalar.select (IntOp.cmpi .slt v 0#32) (IntOp.addi v n) v = v := by
  have hs : v.slt 0#32 = false := by
    rw [BitVec.slt]
    simp only [BitVec.toInt_zero, decide_eq_false_iff_not, not_lt]
    exact h
  show Scalar.select (BitVec.ofBool (v.slt 0#32)) (IntOp.addi v n) v = v
  rw [hs]
  exact if_neg (by decide)

/-- So when it is row `j` of an array with `N` rows, clamping it into `[0, N - 1]` gives `j`. -/
theorem clamp_wrap {N : Nat} (v n : BitVec 32) (j : Fin N) (h : v.toInt = (j.val : Int)) :
    min (Scalar.select (IntOp.cmpi .slt v 0#32) (IntOp.addi v n) v).toInt.toNat (N - 1) = j.val := by
  rw [wrap_of_nonneg v n (by omega), h]
  have := j.isLt
  simp only [Int.toNat_natCast]
  omega

/-! ## Scaling every update that lands in a row by that row's factor scales the row's sum -/

/-- A scatter-add of rows into zeros: if every update element `u` whose row number is `j` satisfies `g u = d j · f u`,
    and every `d j` is a nonnegative real, then the scatter of `g` is, row by row, `d` times the scatter of `f`. -/
theorem scatter_scale {N C E : Nat}
    (wf : ScatterDims.WF ⟨2, ![N, C]⟩ ⟨2, ![E, 1]⟩ ⟨2, ![E, C]⟩ [1] [0] [0] 1)
    (idx : IVec ⟨2, ![E, 1]⟩ 32) (f g : (⟨2, ![E, C]⟩ : Shape).Idx → EReal) (d : Fin N → EReal)
    (hd : ∀ j, 0 ≤ d j ∧ d j ≠ ⊤)
    (hfg : ∀ (u : (⟨2, ![E, C]⟩ : Shape).Idx) (j : Fin N), (idx (ix2 (u 0) 0)).toInt = (j.val : Int) → g u = d j * f u)
    (z : (⟨2, ![N, C]⟩ : Shape).Idx → EReal) (hz : ∀ i, z i = 0) (i : (⟨2, ![N, C]⟩ : Shape).Idx) :
    Ideal.hostScatterAdd (rowScatterDims N C E wf) z idx g i
      = d (i 0) * Ideal.hostScatterAdd (rowScatterDims N C E wf) z idx f i := by
  unfold Ideal.hostScatterAdd
  rw [hz i, zero_add, zero_add, mul_sum_of_nonneg _ _ (hd (i 0)).1 (hd (i 0)).2]
  refine Finset.sum_congr rfl fun u hu => ?_
  have hm : (rowScatterDims N C E wf).resultIdx? u idx = some i := (Finset.mem_filter.mp hu).2
  exact hfg u (i 0) (rowScatter_row wf idx u i hm)

end Cert.Algebra

end
-- ==== Proof.Tails.lean ====
/-
  The host operations after the aggregation, in both programs, as functions of the pieces they share — the edge
  sources `row` and targets `col` (any two integer vectors of 1,700,000 entries), the node scales `dis`, the bias `b`
  — and of the node features: `h = x · W` in the reference, `hs[i, ·] = h[i, ·] · dis[i]` in the kernel.

  Kernel:     out[j, c] = dis[j] · Σ_{(e, c) lands in (j, c)} hs[row' e, c]                        + b[c]
  Reference:  out[j, c] =          Σ_{(e, c) lands in (j, c)} h[row' e, c] · (dis[row' e] · dis[col' e]) + b[c]

  where `row' e` is `row e` wrapped (a negative index gets the extent added) and clamped into the array, and an update
  lands in row `j` exactly when `col e`, as a signed integer, is `j` — then `col' e = j` too, so the reference's extra
  factor is `dis[j]`, which moves out of row `j`'s sum because it is a nonnegative real (Algebra.lean).
-/
import proofs.«149455_j3478923510413_2_alg».proof.KernelIdeal
import proofs.«149455_j3478923510413_2_alg».proof.ReferenceIdeal
import proofs.«149455_j3478923510413_2_alg».proof.Proof.Algebra
import Idealize.ShloMosaic.Lib.Pipeline.Value
import Idealize.ShloMosaic.Lib.ValueIdx

noncomputable section

namespace Cert.Tails

open Idealize.ShloMosaic Idealize.ShloMosaic.ValueIdx Cert.Lib.RowIndex Cert.Algebra

/-! ## Two broadcasts read at an index -/

/-- A vector laid out as a column: entry `(e, 0)` is the vector's entry `e`. -/
theorem col_apply {α : Type} {A : Nat} (hA : A ≠ 1)
    (h : (⟨1, ![A]⟩ : Shape).BroadcastsInDim ⟨2, ![A, 1]⟩ (![0] : Fin 1 → Fin 2)) (v : (⟨1, ![A]⟩ : Shape).Idx → α)
    (e : Fin A) (u : Fin 1) : broadcastInDim ⟨2, ![A, 1]⟩ (![0] : Fin 1 → Fin 2) h v (ix2 e u) = v (ix1 e) :=
  broadcastInDim_apply _ h v (ix2 e u) (ix1 e) (fun a => match a with
    | ⟨0, _⟩ => by show e.val = if A = 1 then 0 else e.val; rw [if_neg hA])

/-- A column repeated along the rows: entry `(e, c)` is the column's entry `(e, 0)`. -/
theorem rows_apply {α : Type} {A B : Nat}
    (h : (⟨2, ![A, 1]⟩ : Shape).BroadcastsInDim ⟨2, ![A, B]⟩ (![0, 1] : Fin 2 → Fin 2)) (v : (⟨2, ![A, 1]⟩ : Shape).Idx → α)
    (e : Fin A) (c : Fin B) : broadcastInDim ⟨2, ![A, B]⟩ (![0, 1] : Fin 2 → Fin 2) h v (ix2 e c) = v (ix2 e (0 : Fin 1)) :=
  broadcastInDim_apply _ h v (ix2 e c) (ix2 e (0 : Fin 1)) (fun a => match a with
    | ⟨0, _⟩ => by
      show e.val = if A = 1 then 0 else e.val
      split
      · have := e.isLt; omega
      · rfl
    | ⟨1, _⟩ => rfl)

/-! ## The kernel's tail -/

section Kernel
open Cert.KernelIdeal Cert.KernelIdeal.Facts₀
variable [Cert.KernelIdeal.Facts₀]

/-- Row numbers wrapped Python-style and laid out as the column a gather reads. -/
def wrapK (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The messages the kernel aggregates: the scaled features of each edge's source. -/
def kerUpd (hs : FVec Ideal S100000x64 .f32) (row : IVec S1700000 32) : FVec Ideal S1700000x64 .f32 :=
  Host.gather gather_S100000x64_S1700000x1_S1700000x64_1_0_n_n_0_1_164 hs (wrapK row)

/-- The kernel's result from the scaled features. -/
def kerTail (hs : FVec Ideal S100000x64 .f32) (dis : FVec Ideal S100000 .f32) (row col : IVec S1700000 32)
    (b : FVec Ideal S64 .f32) : FVec Ideal S100000x64 .f32 :=
  addf (mulf (broadcastInDim S100000x64 ![0, 1] bcast_S100000x1_S100000x64_0_1 (broadcastInDim S100000x1 ![0] bcast_S100000_S100000x1_0 dis))
      (Host.scatterAdd scatter_S100000x64_S1700000x1_S1700000x64_1_0_0_1
        (broadcastInDim S100000x64 ![] bcast_S_S100000x64 (constant (F := Ideal) S_ .f32 0x00000000#32))
        (broadcastInDim S1700000x1 ![0] bcast_S1700000_S1700000x1_0 col) (kerUpd hs row)))
    (broadcastInDim S100000x64 ![0, 1] bcast_S1x64_S100000x64_0_1 (broadcastInDim S1x64 ![1] bcast_S64_S1x64_1 b))

end Kernel

/-! ## The reference's tail -/

section Reference
open Cert.ReferenceIdeal Cert.ReferenceIdeal.Facts₀
variable [Cert.ReferenceIdeal.Facts₀]

/-- The same wrapped column, in the reference's spelling. -/
def wrapR (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The symmetric normalisation of each edge: the scale of its source times the scale of its target. -/
def refNorm (dis : FVec Ideal S100000 .f32) (row col : IVec S1700000 32) : FVec Ideal S1700000 .f32 :=
  mulf (Host.gather gather_S100000_S1700000x1_S1700000_n_0_n_n_0_1_1 dis (wrapR row))
    (Host.gather gather_S100000_S1700000x1_S1700000_n_0_n_n_0_1_1 dis (wrapR col))

/-- The messages the reference aggregates: the features of each edge's source, normalised. -/
def refUpd (h : FVec Ideal S100000x64 .f32) (dis : FVec Ideal S100000 .f32) (row col : IVec S1700000 32) :
    FVec Ideal S1700000x64 .f32 :=
  mulf (Host.gather gather_S100000x64_S1700000x1_S1700000x64_1_0_n_n_0_1_164 h (wrapR row))
    (broadcastInDim S1700000x64 ![0, 1] bcast_S1700000x1_S1700000x64_0_1
      (broadcastInDim S1700000x1 ![0] bcast_S1700000_S1700000x1_0 (refNorm dis row col)))

/-- The reference's result from the features. -/
def refTail (h : FVec Ideal S100000x64 .f32) (dis : FVec Ideal S100000 .f32) (row col : IVec S1700000 32)
    (b : FVec Ideal S64 .f32) : FVec Ideal S100000x64 .f32 :=
  addf (Host.scatterAdd scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 col) (refUpd h dis row col))
    (broadcastInDim S100000x64 ![0, 1] bcast_S1x64_S100000x64_0_1 (broadcastInDim S1x64 ![1] bcast_S64_S1x64_1 b))

end Reference

/-! ## The two tails agree -/

section Agree
variable [Cert.KernelIdeal.Facts₀] [Cert.ReferenceIdeal.Facts₀]

open Cert.ReferenceIdeal Cert.ReferenceIdeal.Facts₀ in
/-- The wrapped column at edge `e` is the wrapped entry `e`. -/
theorem wrapR_apply (v : IVec S1700000 32) (e : Fin 1700000) (u : Fin 1) :
    wrapR v (ix2 e u) = Scalar.select (IntOp.cmpi .slt (v (ix1 e)) 0#32) (IntOp.addi (v (ix1 e)) 100000#32) (v (ix1 e)) := by
  unfold wrapR
  exact col_apply (by decide) _ _ e u

/-- The two spellings of the wrapped column are one function. -/
theorem wrapK_eq (v : IVec Cert.KernelIdeal.S1700000 32) : wrapK v = wrapR v := rfl

open Cert.ReferenceIdeal Cert.ReferenceIdeal.Facts₀ in
/-- Every update element that lands in row `j` is, in the reference, `dis[j]` times the kernel's. -/
theorem upd_scale (h hs : FVec Ideal S100000x64 .f32) (dis : FVec Ideal S100000 .f32) (row col : IVec S1700000 32)
    (hhs : ∀ i : S100000x64.Idx, hs i = h i * dis (ix1 (i 0)))
    (u : S1700000x64.Idx) (j : Fin 100000)
    (hcol : ((broadcastInDim S1700000x1 ![0] bcast_S1700000_S1700000x1_0 col) (ix2 (u 0) 0)).toInt = (j.val : Int)) :
    refUpd h dis row col u = dis (ix1 j) * kerUpd hs row u := by
  obtain ⟨e, c, rfl⟩ : ∃ (e : Fin 1700000) (c : Fin 64), u = ix2 e c := ⟨u 0, u 1, eq_ix2 u⟩
  have hc : (col (ix1 e)).toInt = (j.val : Int) := by
    rw [← hcol]; exact congrArg BitVec.toInt (col_apply (by decide) _ col e 0).symm
  -- the reference's gathers
  have g1 : Host.gather gather_S100000x64_S1700000x1_S1700000x64_1_0_n_n_0_1_164 h (wrapR row) (ix2 e c)
      = h (ix2 ⟨min (wrapR row (ix2 e 0)).toInt.toNat (100000 - 1), by omega⟩ c) :=
    rowGather_apply (N := 100000) (C := 64) (E := 1700000) (by norm_num) gather_S100000x64_S1700000x1_S1700000x64_1_0_n_n_0_1_164_wf h (wrapR row) e c
  have g2 : Host.gather gather_S100000_S1700000x1_S1700000_n_0_n_n_0_1_1 dis (wrapR row) (ix1 e)
      = dis (ix1 ⟨min (wrapR row (ix2 e 0)).toInt.toNat (100000 - 1), by omega⟩) :=
    vecGather_apply (N := 100000) (E := 1700000) (by norm_num) gather_S100000_S1700000x1_S1700000_n_0_n_n_0_1_1_wf dis (wrapR row) e
  have g3 : Host.gather gather_S100000_S1700000x1_S1700000_n_0_n_n_0_1_1 dis (wrapR col) (ix1 e)
      = dis (ix1 ⟨min (wrapR col (ix2 e 0)).toInt.toNat (100000 - 1), by omega⟩) :=
    vecGather_apply (N := 100000) (E := 1700000) (by norm_num) gather_S100000_S1700000x1_S1700000_n_0_n_n_0_1_1_wf dis (wrapR col) e
  -- the kernel's gather
  have g4 : kerUpd hs row (ix2 e c)
      = hs (ix2 ⟨min (wrapR row (ix2 e 0)).toInt.toNat (100000 - 1), by omega⟩ c) :=
    rowGather_apply (N := 100000) (C := 64) (E := 1700000) (by norm_num) Cert.KernelIdeal.Facts₀.gather_S100000x64_S1700000x1_S1700000x64_1_0_n_n_0_1_164_wf hs (wrapR row) e c
  -- the target's wrapped, clamped row is `j`
  have hj : (⟨min (wrapR col (ix2 e 0)).toInt.toNat (100000 - 1), by omega⟩ : Fin 100000) = j :=
    Fin.ext (by
      show min (wrapR col (ix2 e 0)).toInt.toNat (100000 - 1) = j.val
      rw [wrapR_apply col e 0]
      exact clamp_wrap (N := 100000) (col (ix1 e)) 100000#32 j hc)
  have hn : (broadcastInDim S1700000x64 ![0, 1] bcast_S1700000x1_S1700000x64_0_1
      (broadcastInDim S1700000x1 ![0] bcast_S1700000_S1700000x1_0 (refNorm dis row col))) (ix2 e c)
      = refNorm dis row col (ix1 e) :=
    (rows_apply _ _ e c).trans (col_apply (by decide) _ _ e 0)
  unfold refUpd
  rw [mulf_apply, g1, hn, g4, hhs]
  unfold refNorm
  rw [mulf_apply, g2, g3, hj]
  show h _ * (dis _ * dis (ix1 j)) = dis (ix1 j) * (h _ * dis _)
  rw [mul_comm (dis (ix1 j)), mul_assoc]

/-- The kernel's row scatter is the exact row-wise sum, in the reference's spelling of the zeros and of the column. -/
theorem scatterK_eq (col : IVec Cert.KernelIdeal.S1700000 32) (upd : FVec Ideal Cert.KernelIdeal.S1700000x64 .f32) :
    Host.scatterAdd Cert.KernelIdeal.scatter_S100000x64_S1700000x1_S1700000x64_1_0_0_1
      (broadcastInDim Cert.KernelIdeal.S100000x64 ![] Cert.KernelIdeal.Facts₀.bcast_S_S100000x64 (constant (F := Ideal) Cert.KernelIdeal.S_ .f32 0x00000000#32))
      (broadcastInDim Cert.KernelIdeal.S1700000x1 ![0] Cert.KernelIdeal.Facts₀.bcast_S1700000_S1700000x1_0 col) upd
    = Ideal.hostScatterAdd (rowScatterDims 100000 64 1700000 Cert.ReferenceIdeal.Facts₀.scatter_S100000x64_S1700000x1_S1700000x64_1_0_0_1_wf)
      (broadcastInDim Cert.ReferenceIdeal.S100000x64 ![] Cert.ReferenceIdeal.Facts₀.bcast_S_S100000x64 (constant (F := Ideal) Cert.ReferenceIdeal.S_ .f32 0x00000000#32))
      (broadcastInDim Cert.ReferenceIdeal.S1700000x1 ![0] Cert.ReferenceIdeal.Facts₀.bcast_S1700000_S1700000x1_0 col) upd := rfl

/-- So is the reference's. -/
theorem scatterR_eq (col : IVec Cert.ReferenceIdeal.S1700000 32) (upd : FVec Ideal Cert.ReferenceIdeal.S1700000x64 .f32) :
    Host.scatterAdd Cert.ReferenceIdeal.scatter_S100000x64_S1700000x1_S1700000x64_1_0_0_1
      (broadcastInDim Cert.ReferenceIdeal.S100000x64 ![] Cert.ReferenceIdeal.Facts₀.bcast_S_S100000x64 (constant (F := Ideal) Cert.ReferenceIdeal.S_ .f32 0x00000000#32))
      (broadcastInDim Cert.ReferenceIdeal.S1700000x1 ![0] Cert.ReferenceIdeal.Facts₀.bcast_S1700000_S1700000x1_0 col) upd
    = Ideal.hostScatterAdd (rowScatterDims 100000 64 1700000 Cert.ReferenceIdeal.Facts₀.scatter_S100000x64_S1700000x1_S1700000x64_1_0_0_1_wf)
      (broadcastInDim Cert.ReferenceIdeal.S100000x64 ![] Cert.ReferenceIdeal.Facts₀.bcast_S_S100000x64 (constant (F := Ideal) Cert.ReferenceIdeal.S_ .f32 0x00000000#32))
      (broadcastInDim Cert.ReferenceIdeal.S1700000x1 ![0] Cert.ReferenceIdeal.Facts₀.bcast_S1700000_S1700000x1_0 col) upd := rfl

/-- The bias, broadcast over the nodes, is one function in both spellings. -/
theorem bias_eq (b : FVec Ideal Cert.KernelIdeal.S64 .f32) :
    broadcastInDim Cert.KernelIdeal.S100000x64 ![0, 1] Cert.KernelIdeal.Facts₀.bcast_S1x64_S100000x64_0_1
      (broadcastInDim Cert.KernelIdeal.S1x64 ![1] Cert.KernelIdeal.Facts₀.bcast_S64_S1x64_1 b)
    = broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b) := rfl

/-- THE TWO TAILS AGREE when the kernel's features are the reference's scaled row by row and every scale is a
    nonnegative real. -/
theorem tails_agree (h hs : FVec Ideal Cert.KernelIdeal.S100000x64 .f32) (dis : FVec Ideal Cert.KernelIdeal.S100000 .f32)
    (row col : IVec Cert.KernelIdeal.S1700000 32) (b : FVec Ideal Cert.KernelIdeal.S64 .f32)
    (hd : ∀ j, 0 ≤ dis j ∧ dis j ≠ ⊤) (hhs : ∀ i : Cert.KernelIdeal.S100000x64.Idx, hs i = h i * dis (ix1 (i 0))) :
    kerTail hs dis row col b = refTail h dis row col b := by
  funext i
  obtain ⟨j, c, rfl⟩ : ∃ (j : Fin 100000) (c : Fin 64), i = ix2 j c := ⟨i 0, i 1, eq_ix2 i⟩
  have key := scatter_scale (N := 100000) (C := 64) (E := 1700000)
    Cert.ReferenceIdeal.Facts₀.scatter_S100000x64_S1700000x1_S1700000x64_1_0_0_1_wf
    (broadcastInDim Cert.ReferenceIdeal.S1700000x1 ![0] Cert.ReferenceIdeal.Facts₀.bcast_S1700000_S1700000x1_0 col)
    (kerUpd hs row) (refUpd h dis row col) (fun j' => dis (ix1 j')) (fun j' => hd (ix1 j'))
    (fun u j' hu => upd_scale h hs dis row col hhs u j' hu)
    (broadcastInDim Cert.ReferenceIdeal.S100000x64 ![] Cert.ReferenceIdeal.Facts₀.bcast_S_S100000x64 (constant (F := Ideal) Cert.ReferenceIdeal.S_ .f32 0x00000000#32))
    (fun _ => Cert.Consts.ofBits_zero) (ix2 j c)
  have hdj : (broadcastInDim Cert.KernelIdeal.S100000x64 ![0, 1] Cert.KernelIdeal.Facts₀.bcast_S100000x1_S100000x64_0_1
      (broadcastInDim Cert.KernelIdeal.S100000x1 ![0] Cert.KernelIdeal.Facts₀.bcast_S100000_S100000x1_0 dis)) (ix2 j c) = dis (ix1 j) :=
    (rows_apply _ _ j c).trans (col_apply (by decide) _ _ j 0)
  unfold kerTail refTail
  rw [addf_apply, addf_apply, mulf_apply, hdj, scatterK_eq, scatterR_eq, bias_eq, key]

end Agree

end Cert.Tails

end
-- ==== Proof.Features.lean ====
/-
  The node features both programs compute: `h = x · W`, one matrix product, read entry by entry as the sum over the
  256 input channels. The reference computes it whole on the host; the kernel computes it block of 5000 rows by block
  on the matrix unit (from operands narrowed to bfloat16, which at exact arithmetic is no change) and scales row `i` by
  the node's scale `dis[i]` before writing it back.
-/
import Idealize.ShloMosaic.Lib.ValueIdx
import Idealize.ShloMosaic.PureOps.Ideal

noncomputable section

open scoped BigOperators

namespace Cert.Features

open Idealize.ShloMosaic Idealize.ShloMosaic.ValueIdx

/-- `(x · W)[i, c] = Σ_k x[i, k] · W[k, c]`. -/
def feat (x : (⟨2, ![100000, 256]⟩ : Shape).Idx → EReal) (W : (⟨2, ![256, 64]⟩ : Shape).Idx → EReal) :
    (⟨2, ![100000, 64]⟩ : Shape).Idx → EReal :=
  fun i => ∑ k : Fin 256, x (ix2 (i 0) k) * W (ix2 k (i 1))

/-- The kernel's scaled features: `(x · W)[i, c] · dis[i]`. -/
def scaled (x : (⟨2, ![100000, 256]⟩ : Shape).Idx → EReal) (W : (⟨2, ![256, 64]⟩ : Shape).Idx → EReal)
    (dis : (⟨1, ![100000]⟩ : Shape).Idx → EReal) : (⟨2, ![100000, 64]⟩ : Shape).Idx → EReal :=
  fun i => feat x W i * dis (ix1 (i 0))

/-- The same with the scales given as a column `[100000, 1]`, as the kernel stages them. -/
def scaledCol (x : (⟨2, ![100000, 256]⟩ : Shape).Idx → EReal) (W : (⟨2, ![256, 64]⟩ : Shape).Idx → EReal)
    (dcol : (⟨2, ![100000, 1]⟩ : Shape).Idx → EReal) : (⟨2, ![100000, 64]⟩ : Shape).Idx → EReal :=
  fun i => feat x W i * dcol (ix2 (i 0) (0 : Fin 1))

end Cert.Features

end
-- ==== Proof.RefFeat.lean ====
/-
  The reference's `x @ W` on the host, at exact arithmetic, is the matrix product entry by entry: the contraction runs
  over the one contracted axis (the 256 input channels), re-indexed by its coordinate.
-/
import proofs.«149455_j3478923510413_2_alg».proof.ReferenceIdeal
import proofs.«149455_j3478923510413_2_alg».proof.Proof.Gen.ReferenceIdeal
import proofs.«149455_j3478923510413_2_alg».proof.Proof.Features
import Idealize.ShloMosaic.Lib.ValueIdx
import Idealize.ShloMosaic.PureOps.Ideal.Laws

noncomputable section

open scoped BigOperators

namespace Cert.RefFeat

open Idealize.ShloMosaic Idealize.ShloMosaic.ValueIdx Cert.ReferenceIdeal Cert.ReferenceIdeal.Gen Cert.Features

theorem lhs0 (i : S100000x64.Idx) (q : dot_S100000x256_S256x64_S100000x64_1_0_0_1_n_n.contr.Idx) :
    (dot_S100000x256_S256x64_S100000x64_1_0_0_1_n_n.lhsIdx i q 0).val = (i 0).val := by
  unfold DotDims.lhsIdx
  rw [dif_neg (show ¬(0 : Fin S100000x256.rank) ∈ dot_S100000x256_S256x64_S100000x64_1_0_0_1_n_n.lhsBatch by decide),
    dif_pos (show (0 : Fin S100000x256.rank) ∈ dot_S100000x256_S256x64_S100000x64_1_0_0_1_n_n.lhsNonContracting by decide)]
  rfl
theorem lhs1 (i : S100000x64.Idx) (q : dot_S100000x256_S256x64_S100000x64_1_0_0_1_n_n.contr.Idx) :
    (dot_S100000x256_S256x64_S100000x64_1_0_0_1_n_n.lhsIdx i q 1).val = (q ⟨0, by decide⟩).val :=
  dot_S100000x256_S256x64_S100000x64_1_0_0_1_n_n.lhsIdx_val_of_single rfl i q
theorem rhs0 (i : S100000x64.Idx) (q : dot_S100000x256_S256x64_S100000x64_1_0_0_1_n_n.contr.Idx) :
    (dot_S100000x256_S256x64_S100000x64_1_0_0_1_n_n.rhsIdx i q 0).val = (q ⟨0, by decide⟩).val :=
  dot_S100000x256_S256x64_S100000x64_1_0_0_1_n_n.rhsIdx_val_of_single rfl i q
theorem rhs1 (i : S100000x64.Idx) (q : dot_S100000x256_S256x64_S100000x64_1_0_0_1_n_n.contr.Idx) :
    (dot_S100000x256_S256x64_S100000x64_1_0_0_1_n_n.rhsIdx i q 1).val = (i 1).val := by
  unfold DotDims.rhsIdx
  rw [dif_neg (show ¬(1 : Fin S256x64.rank) ∈ dot_S100000x256_S256x64_S100000x64_1_0_0_1_n_n.rhsBatch by decide),
    dif_pos (show (1 : Fin S256x64.rank) ∈ dot_S100000x256_S256x64_S100000x64_1_0_0_1_n_n.rhsNonContracting by decide)]
  rfl

/-- The host's product is `feat`. -/
theorem dot_eq_feat (x : FVec Ideal S100000x256 .f32) (W : FVec Ideal S256x64 .f32) :
    Host.dotGeneral dot_S100000x256_S256x64_S100000x64_1_0_0_1_n_n none x W = feat x W := by
  funext i
  simp only [Host.dotGeneral]
  rw [Ideal.dotGeneral_apply, ← Equiv.sum_comp (contrEquiv1 dot_S100000x256_S256x64_S100000x64_1_0_0_1_n_n 256 rfl rfl).symm]
  unfold feat
  refine Finset.sum_congr rfl fun k _ => ?_
  have hk := contrEquiv1_symm_val dot_S100000x256_S256x64_S100000x64_1_0_0_1_n_n 256 rfl rfl k
  have el : dot_S100000x256_S256x64_S100000x64_1_0_0_1_n_n.lhsIdx i ((contrEquiv1 dot_S100000x256_S256x64_S100000x64_1_0_0_1_n_n 256 rfl rfl).symm k)
      = ix2 (i 0) k := funext fun a => Fin.ext (by
    match a with
    | ⟨0, _⟩ => exact lhs0 _ _
    | ⟨1, _⟩ => exact (lhs1 _ _).trans hk)
  have er : dot_S100000x256_S256x64_S100000x64_1_0_0_1_n_n.rhsIdx i ((contrEquiv1 dot_S100000x256_S256x64_S100000x64_1_0_0_1_n_n 256 rfl rfl).symm k)
      = ix2 k (i 1) := funext fun a => Fin.ext (by
    match a with
    | ⟨0, _⟩ => exact (rhs0 _ _).trans hk
    | ⟨1, _⟩ => exact rhs1 _ _)
  rw [el, er]
  rfl

end Cert.RefFeat

end
-- ==== Proof.KernelHost.lean ====
/-
  What the kernel's host operations before the aggregation leave in the buffers the rest of the program reads, as
  functions of the edge list `ei : [2, 1600000]`: the edge sources `row` and targets `col` (each row of `ei` followed
  by the self-loops `0 … 99999`), the in-degree `deg` (a scatter-add of ones over `col`), the node scale
  `dis = where(deg > 0, rsqrt(max(deg, 1e-12)), 0)`, and `dis` as a column `[100000, 1]`, the array the kernel's third
  window stages. The scale of every node is a nonnegative real whatever the degree is.
-/
import proofs.«149455_j3478923510413_2_alg».proof.Proof.Gen.KernelIdeal.Frame
import proofs.«149455_j3478923510413_2_alg».proof.Proof.Algebra
import Idealize.ShloMosaic.Lib.StableHlo.Run
import Idealize.ShloMosaic.Lib.ValueIdx

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

/-- The edge sources. -/
def rowK (ei : IVec S2x1600000 32) : IVec S1700000 32 :=
  concatenate S1700000 0 [⟨S1600000, (shapeCast _ (extractStridedSlice S1x1600000 ![0, 0] ei Facts₀.slices_S2x1600000_S1x1600000_0_0) Facts₀.shapeCasts_S1x1600000_S1600000)⟩, ⟨S100000, (iotaInDim S100000 32 0)⟩] Facts₀.concatenates_S1600000_S100000_S1700000_d0

/-- The edge targets. -/
def colK (ei : IVec S2x1600000 32) : IVec S1700000 32 :=
  concatenate S1700000 0 [⟨S1600000, (shapeCast _ (extractStridedSlice S1x1600000 ![1, 0] ei Facts₀.slices_S2x1600000_S1x1600000_1_0) Facts₀.shapeCasts_S1x1600000_S1600000)⟩, ⟨S100000, (iotaInDim S100000 32 0)⟩] Facts₀.concatenates_S1600000_S100000_S1700000_d0

/-- The in-degrees. -/
def degK (ei : IVec S2x1600000 32) : FVec Ideal S100000 .f32 :=
  Host.scatterAdd scatter_S100000_S1700000x1_S1700000_n_0_0_1 (broadcastInDim S100000 ![] Facts₀.bcast_S_S100000 (constant (F := Ideal) S_ .f32 0x00000000#32))
    (broadcastInDim S1700000x1 ![0] Facts₀.bcast_S1700000_S1700000x1_0 (colK ei)) (broadcastInDim S1700000 ![] Facts₀.bcast_S_S1700000 (constant (F := Ideal) S_ .f32 0x3F800000#32))

/-- The node scales. -/
def disK (ei : IVec S2x1600000 32) : FVec Ideal S100000 .f32 :=
  select (cmpf .ogt (degK ei) (broadcastInDim S100000 ![] Facts₀.bcast_S_S100000 (constant (F := Ideal) S_ .f32 0x00000000#32)))
    (Host.rsqrt (maximumf (degK ei) (broadcastInDim S100000 ![] Facts₀.bcast_S_S100000 (constant (F := Ideal) S_ .f32 0x2B8CBCCC#32))))
    (broadcastInDim S100000 ![] Facts₀.bcast_S_S100000 (id (constant (F := Ideal) S_ .f32 0x00000000#32)))

/-- The scale computed from ANY vector of degrees and ANY vector to compare them with is, entry by entry, a
    nonnegative real: it is `0`, or the reciprocal square root of a maximum with the positive real the word
    `0x2B8CBCCC` denotes. -/
theorem scale_vec_bounds (deg Z : FVec Ideal S100000 .f32) (j : S100000.Idx) :
    0 ≤ select (cmpf .ogt deg Z)
        (Host.rsqrt (maximumf deg (broadcastInDim S100000 ![] Facts₀.bcast_S_S100000 (constant (F := Ideal) S_ .f32 0x2B8CBCCC#32))))
        (broadcastInDim S100000 ![] Facts₀.bcast_S_S100000 (id (constant (F := Ideal) S_ .f32 0x00000000#32))) j
      ∧ select (cmpf .ogt deg Z)
        (Host.rsqrt (maximumf deg (broadcastInDim S100000 ![] Facts₀.bcast_S_S100000 (constant (F := Ideal) S_ .f32 0x2B8CBCCC#32))))
        (broadcastInDim S100000 ![] Facts₀.bcast_S_S100000 (id (constant (F := Ideal) S_ .f32 0x00000000#32))) j ≠ ⊤ := by
  have hE : (broadcastInDim S100000 ![] Facts₀.bcast_S_S100000 (constant (F := Ideal) S_ .f32 0x2B8CBCCC#32)) j
      = (((9223372 : ℝ) * (2 : ℝ) ^ (-63 : ℤ) : ℝ) : EReal) := Cert.Consts.ofBits_tiny
  have hZ : (broadcastInDim S100000 ![] Facts₀.bcast_S_S100000 (id (constant (F := Ideal) S_ .f32 0x00000000#32))) j = 0 :=
    Cert.Consts.ofBits_zero
  have h1 : select (cmpf .ogt deg Z)
        (Host.rsqrt (maximumf deg (broadcastInDim S100000 ![] Facts₀.bcast_S_S100000 (constant (F := Ideal) S_ .f32 0x2B8CBCCC#32))))
        (broadcastInDim S100000 ![] Facts₀.bcast_S_S100000 (id (constant (F := Ideal) S_ .f32 0x00000000#32))) j
      = Scalar.select (cmpf .ogt deg Z j)
        (Ideal.rsqrt (max (deg j) ((broadcastInDim S100000 ![] Facts₀.bcast_S_S100000 (constant (F := Ideal) S_ .f32 0x2B8CBCCC#32)) j)))
        ((broadcastInDim S100000 ![] Facts₀.bcast_S_S100000 (id (constant (F := Ideal) S_ .f32 0x00000000#32))) j) := rfl
  rw [h1, hE, hZ]
  exact Cert.Algebra.scale_bounds _ _ _ Cert.Consts.tiny_pos

/-- Every node's scale is a nonnegative real. -/
theorem disK_bounds (ei : IVec S2x1600000 32) (j : S100000.Idx) : 0 ≤ disK ei j ∧ disK ei j ≠ ⊤ := by
  unfold disK
  exact scale_vec_bounds _ _ j

/-! ## What the host prefix leaves, stretch by stretch

The prefix is three stretches: the plain operations up to the reciprocal square root, the three operations of the
outlined `where` (whose buffers are typed references: their contents pass through transports along `rfl`), and the
reshape of the scales to a column. Each stretch is read on its own — the outlined one and the reshape from ANY contents
of the buffers, so that the transports only ever wrap variables. -/

/-- Running two stretches one after the other. -/
theorem after_append (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op ops ih => exact ih _

/-- The outlined `where(c, a, z)`: the result buffer ends at `select c a (broadcast z)`. -/
theorem where_of (U : Valuation τ sig (Elt Ideal)) :
    (StableHlo.after (hostOps0_1 (F := Ideal)) U (Proc.devRef .tc main_v16) : S100000.Idx → EReal)
      = select (U (Proc.devRef .tc main_v12)) (U (Proc.devRef .tc main_v15))
          (broadcastInDim S100000 ![] Facts₀.bcast_S_S100000 (id (U (Proc.devRef .tc main_cst_3)))) := by
  simp only [hostOps0_1]
  after_results_simp <;> rfl

/-- It leaves the edge sources and targets alone. -/
theorem where_keeps_v3 (U : Valuation τ sig (Elt Ideal)) :
    StableHlo.after (hostOps0_1 (F := Ideal)) U (Proc.devRef .tc main_v3) = U (Proc.devRef .tc main_v3) := by
  simp only [hostOps0_1]
  after_results_simp
theorem where_keeps_v6 (U : Valuation τ sig (Elt Ideal)) :
    StableHlo.after (hostOps0_1 (F := Ideal)) U (Proc.devRef .tc main_v6) = U (Proc.devRef .tc main_v6) := by
  simp only [hostOps0_1]
  after_results_simp

/-- The reshape: the column buffer ends at the scales cast to a column, and nothing else changes. -/
theorem column_of (U : Valuation τ sig (Elt Ideal)) :
    (StableHlo.after (hostOps0_2 (F := Ideal)) U (Proc.devRef .tc main_v17) : S100000x1.Idx → EReal)
      = shapeCast S100000x1 (U (Proc.devRef .tc main_v16)) Facts₀.shapeCasts_S100000_S100000x1 := by
  simp only [hostOps0_2]
  after_results_simp <;> rfl
theorem column_keeps_v16 (U : Valuation τ sig (Elt Ideal)) :
    StableHlo.after (hostOps0_2 (F := Ideal)) U (Proc.devRef .tc main_v16) = U (Proc.devRef .tc main_v16) := by
  simp only [hostOps0_2]
  after_results_simp
theorem column_keeps_v3 (U : Valuation τ sig (Elt Ideal)) :
    StableHlo.after (hostOps0_2 (F := Ideal)) U (Proc.devRef .tc main_v3) = U (Proc.devRef .tc main_v3) := by
  simp only [hostOps0_2]
  after_results_simp
theorem column_keeps_v6 (U : Valuation τ sig (Elt Ideal)) :
    StableHlo.after (hostOps0_2 (F := Ideal)) U (Proc.devRef .tc main_v6) = U (Proc.devRef .tc main_v6) := by
  simp only [hostOps0_2]
  after_results_simp

variable (m : (ℓ : Loc nD τ sig) → Buf (Elt Ideal) ℓ)

/-- The first stretch leaves the edge sources in `main_v3`, -/
theorem first_row (c : Dev nD) : (StableHlo.after (hostOps0 (F := Ideal)) (fun b => m (c, b)) (Proc.devRef .tc main_v3) : S1700000.Idx → BitVec 32)
    = rowK (m ((c : Thread nD τ).loc main_arg1)) := by
  unfold rowK
  simp only [hostOps0]
  after_results_simp <;> rfl
/-- the edge targets in `main_v6`, -/
theorem first_col (c : Dev nD) : (StableHlo.after (hostOps0 (F := Ideal)) (fun b => m (c, b)) (Proc.devRef .tc main_v6) : S1700000.Idx → BitVec 32)
    = colK (m ((c : Thread nD τ).loc main_arg1)) := by
  unfold colK
  simp only [hostOps0]
  after_results_simp <;> rfl
/-- the comparison of the degrees with zero in `main_v12`, -/
theorem first_cmp (c : Dev nD) : (StableHlo.after (hostOps0 (F := Ideal)) (fun b => m (c, b)) (Proc.devRef .tc main_v12) : S100000.Idx → BitVec 1)
    = cmpf .ogt (degK (m ((c : Thread nD τ).loc main_arg1))) (broadcastInDim S100000 ![] Facts₀.bcast_S_S100000 (constant (F := Ideal) S_ .f32 0x00000000#32)) := by
  unfold degK colK
  simp only [hostOps0]
  after_results_simp <;> rfl
/-- the reciprocal square roots in `main_v15`, -/
theorem first_rsqrt (c : Dev nD) : (StableHlo.after (hostOps0 (F := Ideal)) (fun b => m (c, b)) (Proc.devRef .tc main_v15) : S100000.Idx → EReal)
    = Host.rsqrt (maximumf (degK (m ((c : Thread nD τ).loc main_arg1))) (broadcastInDim S100000 ![] Facts₀.bcast_S_S100000 (constant (F := Ideal) S_ .f32 0x2B8CBCCC#32))) := by
  unfold degK colK
  simp only [hostOps0]
  after_results_simp <;> rfl
/-- and the zero in `main_cst_3`. -/
theorem first_zero (c : Dev nD) : (StableHlo.after (hostOps0 (F := Ideal)) (fun b => m (c, b)) (Proc.devRef .tc main_cst_3) : S_.Idx → EReal)
    = constant (F := Ideal) S_ .f32 0x00000000#32 := by
  simp only [hostOps0]
  after_results_simp <;> rfl

/-- The prefix as its three stretches in turn. -/
theorem V0_split (c : Dev nD) : V0 m c
    = StableHlo.after (hostOps0_2 (F := Ideal)) (StableHlo.after (hostOps0_1 (F := Ideal)) (StableHlo.after (hostOps0 (F := Ideal)) (fun b => m (c, b)))) := by
  dsimp only [Gen.V0]
  simp only [List.flatten_cons, List.flatten_nil, List.append_nil]
  rw [after_append, after_append]

/-- The host prefix leaves the edge sources in `main_v3`, -/
theorem V_row (c : Dev nD) : (V m c main_v3 : S1700000.Idx → BitVec 32) = rowK (m ((c : Thread nD τ).loc main_arg1)) := by
  show V0 m c (Proc.devRef .tc main_v3) = _
  rw [V0_split, column_keeps_v3, where_keeps_v3]
  exact first_row m c

/-- the edge targets in `main_v6`, -/
theorem V_col (c : Dev nD) : (V m c main_v6 : S1700000.Idx → BitVec 32) = colK (m ((c : Thread nD τ).loc main_arg1)) := by
  show V0 m c (Proc.devRef .tc main_v6) = _
  rw [V0_split, column_keeps_v6, where_keeps_v6]
  exact first_col m c

/-- the node scales in `main_v16`, -/
theorem V_dis (c : Dev nD) : (V m c main_v16 : S100000.Idx → EReal) = disK (m ((c : Thread nD τ).loc main_arg1)) := by
  show V0 m c (Proc.devRef .tc main_v16) = _
  rw [V0_split, column_keeps_v16]
  refine (where_of _).trans ?_
  unfold disK
  rw [first_cmp m c, first_rsqrt m c, first_zero m c]

/-- and the scales as a column in `main_v17`, the array of the kernel's third window. -/
theorem V_discol (c : Dev nD) : (V m c main_v17 : S100000x1.Idx → EReal)
    = shapeCast S100000x1 (disK (m ((c : Thread nD τ).loc main_arg1))) Facts₀.shapeCasts_S100000_S100000x1 := by
  show V0 m c (Proc.devRef .tc main_v17) = _
  rw [V0_split]
  refine (column_of _).trans ?_
  refine congrArg (fun d => shapeCast S100000x1 d Facts₀.shapeCasts_S100000_S100000x1) ?_
  refine (where_of _).trans ?_
  unfold disK
  rw [first_cmp m c, first_rsqrt m c, first_zero m c]

end Cert.KernelIdeal.HostSide

end
-- ==== Proof.RefValue.lean ====
/-
  The reference's result as the reference tail of its pieces: the composed term its run ends with is, read structurally,
  the tail (Tails.lean) applied to the host's product `x @ W`, to the node scales `dis` and to the edge sources and targets
  `row`, `col` — the same three functions of the edge list the kernel's host operations compute, spelt here over the
  reference's own records.
-/
import proofs.«149455_j3478923510413_2_alg».proof.Proof.RefRun
import proofs.«149455_j3478923510413_2_alg».proof.Proof.Tails
import proofs.«149455_j3478923510413_2_alg».proof.Proof.RefFeat
import proofs.«149455_j3478923510413_2_alg».proof.Proof.KernelHost

set_option maxRecDepth 16384

noncomputable section

namespace Cert.ReferenceIdeal.RefValue

open Idealize.ShloMosaic Idealize.ShloMosaic.TcCoe Idealize.SL.Sem
open Cert.ReferenceIdeal Cert.ReferenceIdeal.Facts₀ Cert.Tails Cert.Features

/-- The edge sources. -/
def rowR (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edge targets. -/
def colR (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The in-degrees. -/
def degR (ei : IVec S2x1600000 32) : FVec Ideal S100000 .f32 :=
  Host.scatterAdd scatter_S100000_S1700000x1_S1700000_n_0_0_1 (broadcastInDim S100000 ![] bcast_S_S100000 (constant (F := Ideal) S_ .f32 0x00000000#32))
    (broadcastInDim S1700000x1 ![0] bcast_S1700000_S1700000x1_0 (colR ei)) (broadcastInDim S1700000 ![] bcast_S_S1700000 (constant (F := Ideal) S_ .f32 0x3F800000#32))

/-- The node scales. -/
def disR (ei : IVec S2x1600000 32) : FVec Ideal S100000 .f32 :=
  select (cmpf .ogt (degR ei) (broadcastInDim S100000 ![] bcast_S_S100000 (constant (F := Ideal) S_ .f32 0x00000000#32)))
    (Host.rsqrt (maximumf (degR ei) (broadcastInDim S100000 ![] bcast_S_S100000 (constant (F := Ideal) S_ .f32 0x2B8CBCCC#32))))
    (broadcastInDim S100000 ![] bcast_S_S100000 (id (constant (F := Ideal) S_ .f32 0x00000000#32)))

/-- They are the kernel side's functions of the edge list. -/
theorem rowR_eq (ei : IVec S2x1600000 32) : rowR ei = Cert.KernelIdeal.HostSide.rowK ei := by
  unfold rowR Cert.KernelIdeal.HostSide.rowK; rfl
theorem colR_eq (ei : IVec S2x1600000 32) : colR ei = Cert.KernelIdeal.HostSide.colK ei := by
  unfold colR Cert.KernelIdeal.HostSide.colK; rfl
theorem disR_eq (ei : IVec S2x1600000 32) : disR ei = Cert.KernelIdeal.HostSide.disK ei := by
  unfold disR Cert.KernelIdeal.HostSide.disK degR Cert.KernelIdeal.HostSide.degK colR Cert.KernelIdeal.HostSide.colK; rfl

/-- THE REFERENCE'S RESULT is the reference tail of the product, the scales, the sources, the targets and the bias. -/
theorem res_eq (m : (ℓ : Loc nD τ sig) → Buf (Elt Ideal) ℓ) (c : Dev nD) :
    Cert.ReferenceIdeal.RefRun.res_main_v48 (F := Ideal) m c
      = refTail (Host.dotGeneral (φ₁ := .f32) (φ₂ := .f32) dot_S100000x256_S256x64_S100000x64_1_0_0_1_n_n none (m ((c.tc : Thread nD τ).loc main_arg0)) (m ((c.tc : Thread nD τ).loc main_arg2)))
          (disR (m ((c.tc : Thread nD τ).loc main_arg1))) (rowR (m ((c.tc : Thread nD τ).loc main_arg1)))
          (colR (m ((c.tc : Thread nD τ).loc main_arg1))) (m ((c.tc : Thread nD τ).loc main_arg3)) := by
  unfold Cert.ReferenceIdeal.RefRun.res_main_v48 refTail refUpd refNorm wrapR disR degR rowR colR
  rfl

end Cert.ReferenceIdeal.RefValue

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Payload.lean ====
/-
  The kernel body's arithmetic at an entry: for a block of 5000 rows of `x`, the whole of `W` and the block's 5000
  scales as a column, entry `(p, c)` of what the body stores is `(Σ_k xblk[p, k] · W[k, c]) · dblk[p, 0]` — the matrix
  unit's product into a zero accumulator is the plain sum, the narrowing to bfloat16 is no change at exact
  arithmetic, and the column of scales is repeated along the 64 output channels.
-/
import proofs.«149455_j3478923510413_2_alg».proof.Proof.Gen.KernelIdeal.Skeleton
import proofs.«149455_j3478923510413_2_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.LibKeepdims

theorem lhs0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl
theorem lhs1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl

/-- The block product at `(p, c)`: the sum over the 256 input channels. -/
theorem blockProduct_apply (a : FVec Ideal S5000x256 .bf16) (w : FVec Ideal S256x64 .bf16) (p : Fin 5000) (c : Fin 64) :
    matmul dot_S5000x256_S256x64_S5000x64_1_0_0_1_n_n none a w (constant (F := Ideal) S5000x64 .f32 0x00000000#32) (ix2 p c)
      = ∑ k : Fin 256, a (ix2 p k) * w (ix2 k c) := by
  refine (Ideal.matmul_constant_zero_apply dot_S5000x256_S256x64_S5000x64_1_0_0_1_n_n none a w (ix2 p c)).trans ?_
  rw [← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p c) ((contrEquiv1 dot_S5000x256_S256x64_S5000x64_1_0_0_1_n_n 256 rfl rfl).symm k)
      = ix2 p k := funext fun x => Fin.ext (by
    match x with
    | ⟨0, _⟩ => exact lhs0 _ _
    | ⟨1, _⟩ => exact (lhs1 _ _).trans hk)
  have er : dot_S5000x256_S256x64_S5000x64_1_0_0_1_n_n.rhsIdx (ix2 p c) ((contrEquiv1 dot_S5000x256_S256x64_S5000x64_1_0_0_1_n_n 256 rfl rfl).symm k)
      = ix2 k c := funext fun x => Fin.ext (by
    match x with
    | ⟨0, _⟩ => exact (rhs0 _ _).trans hk
    | ⟨1, _⟩ => exact rhs1 _ _)
  rw [el, er]

/-- THE PAYLOAD AT `(p, c)`. -/
theorem pay_apply (x0 : FVec Ideal S5000x256 .f32) (x1 : FVec Ideal S256x64 .f32) (x2 : FVec Ideal S5000x1 .f32)
    (p : Fin 5000) (c : Fin 64) :
    k0_pay1 x0 x1 x2 (ix2 p c) = (∑ k : Fin 256, x0 (ix2 p k) * x1 (ix2 k c)) * x2 (ix2 p (0 : Fin 1)) := by
  unfold k0_pay1
  refine (mulf_apply _ _ (ix2 p c)).trans ?_
  refine congrArg₂ (· * ·) ((blockProduct_apply _ _ p c).trans rfl) ?_
  refine (broadcastTo_a1_ab_apply _ _ p c).trans ?_
  exact congrFun (shapeCast_self x2 _) (ix2 p (0 : Fin 1))

end Cert.KernelIdeal.Payload

end
-- ==== Proof.KernelValue.lean ====
/-
  The array the kernel writes, `main_v18 : [100000, 64]`, after the run: grid point `t` (of 20) writes back rows
  `5000 t … 5000 t + 4999`, and what it writes is, entry by entry, `(x · W)[i, c] · dis[i]` of the arrays as the region
  finds them — its `x` block is those same rows of `x`, its `W` block is all of `W`, its scale block those rows of the
  column of scales. The twenty blocks tile the array, so the whole array ends as that one function.
-/
import proofs.«149455_j3478923510413_2_alg».proof.Proof.Gen.KernelIdeal.Frame
import proofs.«149455_j3478923510413_2_alg».proof.Proof.Payload
import proofs.«149455_j3478923510413_2_alg».proof.Proof.Features
import proofs.«149455_j3478923510413_2_alg».proof.Proof.KernelHost
import Idealize.ShloMosaic.Lib.Pipeline.Value
import Idealize.ShloMosaic.Lib.ValueIdx

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Features Cert.KernelIdeal.Payload Cert.KernelIdeal.HostSide

variable (m : (ℓ : Loc nD τ sig) → Buf (Elt Ideal) ℓ)

theorem hz : (![0, 0] : Fin 2 → Nat) = fun _ => 0 := funext fun a => by fin_cases a <;> rfl

/-- The printed index maps over the grid: the `x` window and the scale window move with the output window along the
    rows, `W`'s stays put, and point `t`'s row block is block `t`. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) = t.val :=
  (by decide +kernel : ∀ t : Fin grid0.N, _)

/-- One entry of what a point stores: if the point's `x` block holds rows of `X`, its `W` block holds `W`, and its scale
    block holds entries of the column `D`, each where the output entry `i` says, then the stored entry `y` is the
    scaled feature `i`. -/
theorem point_eq (X : S100000x256.Idx → EReal) (W : S256x64.Idx → EReal) (D : S100000x1.Idx → EReal)
    (x0 : FVec Ideal S5000x256 .f32) (x1 : FVec Ideal S256x64 .f32) (x2 : FVec Ideal S5000x1 .f32)
    (y : S5000x64.Idx) (i : S100000x64.Idx)
    (h0 : ∀ k : Fin 256, x0 (ix2 (y 0) k) = X (ix2 (i 0) k))
    (h1 : ∀ k : Fin 256, x1 (ix2 k (y 1)) = W (ix2 k (i 1)))
    (h2 : x2 (ix2 (y 0) (0 : Fin 1)) = D (ix2 (i 0) (0 : Fin 1))) :
    k0_pay1 (F := Ideal) x0 x1 x2 y = scaledCol X W D i := by
  obtain ⟨p, q, rfl⟩ : ∃ (p : Fin 5000) (q : Fin 64), y = ix2 p q := ⟨y 0, y 1, eq_ix2 y⟩
  refine (pay_apply x0 x1 x2 p q).trans ?_
  unfold scaledCol feat
  have h2' : x2 (ix2 p (0 : Fin 1)) = D (ix2 (i 0) (0 : Fin 1)) := h2
  rw [h2']
  exact congrArg (· * D (ix2 (i 0) (0 : Fin 1))) (Finset.sum_congr rfl fun k _ => by
    have a := h0 k
    have b := h1 k
    exact congrArg₂ (· * ·) a b)

set_option maxHeartbeats 1000000 in
/-- Point `t`'s body applied to the point's blocks of ANY three arrays `X : [100000, 256]`, `W : [256, 64]`,
    `D : [100000, 1]` is the point's block of their scaled features: the `x` and scale blocks are the output block's rows,
    the `W` block is all of `W`. -/
theorem block_eq (X : S100000x256.Idx → EReal) (W : S256x64.Idx → EReal) (D : S100000x1.Idx → EReal) (t : Fin cfg0.N) :
    k0_pay1 (F := Ideal) (((cfg0.win 0).blk t).view.read (Elt Ideal) X) (((cfg0.win 1).blk t).view.read (Elt Ideal) W)
        (((cfg0.win 2).blk t).view.read (Elt Ideal) D)
      = ((cfg0.win 3).blk t).view.read (Elt Ideal) (scaledCol X W D) := by
  obtain ⟨e0, e1, e2, e3, e4, e5, e6, e7⟩ := idx_facts t
  funext y
  refine point_eq X W D (((cfg0.win 0).blk t).view.read (Elt Ideal) X) (((cfg0.win 1).blk t).view.read (Elt Ideal) W)
    (((cfg0.win 2).blk t).view.read (Elt Ideal) D) y (((cfg0.win 3).blk t).view.emb y) ?_ ?_ ?_
  · intro k
    show X (((cfg0.win 0).blk t).view.emb (ix2 (y 0) k)) = X (ix2 ((((cfg0.win 3).blk t).view.emb y) 0) k)
    refine congrArg X (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 256 + 1 * k.val = k.val; omega
  · intro k
    show W (((cfg0.win 1).blk t).view.emb (ix2 k (y 1))) = W (ix2 k ((((cfg0.win 3).blk t).view.emb y) 1))
    refine congrArg W (funext fun a => Fin.ext ?_)
    match a with
    | ⟨0, _⟩ => show win0_1.index t (0 : Fin 2) * 256 + 1 * k.val = k.val; omega
    | ⟨1, _⟩ => show win0_1.index t (1 : Fin 2) * 64 + 1 * (y 1).val = win0_3.index t (1 : Fin 2) * 64 + 1 * (y 1).val; omega
  · show D (((cfg0.win 2).blk t).view.emb (ix2 (y 0) (0 : Fin 1))) = D (ix2 ((((cfg0.win 3).blk t).view.emb y) 0) (0 : Fin 1))
    refine congrArg D (funext fun a => Fin.ext ?_)
    match a with
    | ⟨0, _⟩ => show win0_2.index t (0 : Fin 2) * 5000 + 1 * (y 0).val = win0_3.index t (0 : Fin 2) * 5000 + 1 * (y 0).val; omega
    | ⟨1, _⟩ => show win0_2.index t (1 : Fin 2) * 1 + 1 * 0 = 0; omega

/-- The same with the three blocks named: whatever blocks `x0`, `x1`, `x2` are, once they are the point's blocks of
    `X`, `W`, `D`, what the point writes back of the body's payload is the point's block of the scaled features. -/
theorem block_gen (X : S100000x256.Idx → EReal) (W : S256x64.Idx → EReal) (D : S100000x1.Idx → EReal) (t : Fin cfg0.N)
    (x0 : FVec Ideal S5000x256 .f32) (x1 : FVec Ideal S256x64 .f32) (x2 : FVec Ideal S5000x1 .f32)
    (h0 : x0 = ((cfg0.win 0).blk t).view.read (Elt Ideal) X) (h1 : x1 = ((cfg0.win 1).blk t).view.read (Elt Ideal) W)
    (h2 : x2 = ((cfg0.win 2).blk t).view.read (Elt Ideal) D) :
    (cfg0.win 3).cut (grid0.coords t) (k0_pay1 (F := Ideal) x0 x1 x2)
      = ((cfg0.win 3).blk t).view.read (Elt Ideal) (scaledCol X W D) := by
  subst h0 h1 h2
  exact block_eq X W D t

set_option maxHeartbeats 1000000 in
/-- WHAT POINT `t` WRITES BACK is block `t` of the scaled features of the arrays as the region finds them. -/
theorem flushed_eq (c : Dev nD) (t : Fin cfg0.N) :
    (dats m 0 c).flushed 3 t = ((cfg0.win 3).blk t).view.read (Elt Ideal)
      (scaledCol (V m c main_arg0) (V m c main_arg2) (V m c main_v17)) := by
  show (cfg0.win 3).cut (grid0.coords t) ((dats m 0 c).after 3 t) = _
  rw [after0_3]
  unfold out0_3
  rw [View.canon_unit_zero hz]
  simp only [View.ld_unit_zero (S := S5000x256) hz, View.ld_unit_zero (S := S256x64) hz, View.ld_unit_zero (S := S5000x1) hz]
  exact block_gen (V m c main_arg0) (V m c main_arg2) (V m c main_v17) t (iblk m c 0 t) (iblk m c 1 t) (iblk m c 2 t) rfl rfl rfl

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v18).slice (win0_3.rect t)).set ↔ _
  rw [View.set_slice_whole, Rect.mem_set_unit]
  exact Iff.rfl

/-- Every index of the array is in the block of the point that owns its row: point `⌊row / 5000⌋`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨_, _, _, _, _, _, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- With the scales given as a vector cast to a column, the column form is the vector form. -/
theorem scaledCol_cast (x : S100000x256.Idx → EReal) (W : S256x64.Idx → EReal) (dis : S100000.Idx → EReal)
    (h : S100000.ShapeCasts S100000x1) : scaledCol x W (shapeCast S100000x1 dis h) = scaled x W dis := by
  funext i
  unfold scaledCol scaled
  exact congrArg (feat x W i * ·) (Cert.LibKeepdims.shapeCast_a_a1_apply dis h (i 0) 0)

/-- THE ARRAY after the run: the scaled features of the argument arrays. -/
theorem final (c : Dev nD) : (dats m 0 c).arrAt 3 cfg0.N
    = scaled (m ((c : Thread nD τ).loc main_arg0)) (m ((c : Thread nD τ).loc main_arg2)) (disK (m ((c : Thread nD τ).loc main_arg1))) := by
  rw [(dats m 0 c).arrAt_eq_of_cover 3 (scaledCol (V m c main_arg0) (V m c main_arg2) (V m c main_v17))
    (fun t _ => flushed_eq m c t) cover]
  rw [V_main_arg0, V_main_arg2, V_discol]
  exact scaledCol_cast _ _ _ _

end Cert.KernelIdeal.KValue

end
-- ==== Proof.KernelRun.lean ====
/-
  The kernel program's run with its result named: after the aggregation region the remaining host operations read the
  array the kernel wrote (the scaled features), the edge sources and targets, the node scales and the bias, and leave in
  the result buffer the kernel tail (Tails.lean) of those five.
-/
import proofs.«149455_j3478923510413_2_alg».proof.Proof.Gen.KernelIdeal.Frame
import proofs.«149455_j3478923510413_2_alg».proof.Proof.KernelValue
import proofs.«149455_j3478923510413_2_alg».proof.Proof.KernelHost
import proofs.«149455_j3478923510413_2_alg».proof.Proof.Tails
import Idealize.ShloMosaic.Lib.StableHlo.Run

set_option maxRecDepth 16384

noncomputable section

namespace Cert.KernelIdeal.KRun

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.HostSide Cert.KernelIdeal.KValue Cert.Tails Cert.Features

/-- The host operations after the region, from ANY contents of the buffers: the result buffer ends at the kernel tail of
    what the five buffers they read held. -/
theorem tail_of (U : Valuation τ sig (Elt Ideal)) :
    StableHlo.after (hostOps1 (F := Ideal)) U (Proc.devRef .tc main_v34)
      = kerTail (U (Proc.devRef .tc main_v18)) (U (Proc.devRef .tc main_v16)) (U (Proc.devRef .tc main_v3))
          (U (Proc.devRef .tc main_v6)) (U (Proc.devRef .tc main_arg3)) := by
  unfold kerTail kerUpd wrapK
  simp only [hostOps1]
  after_results_simp <;> rfl

variable (m : (ℓ : Loc nD τ sig) → Buf (Elt Ideal) ℓ) (ρ : Dev nD → PrngReg)

/-- The kernel program's result, as a function of the argument arrays. -/
def result (c : Dev nD) : FVec Ideal S100000x64 .f32 :=
  kerTail (scaled (m ((c : Thread nD τ).loc main_arg0)) (m ((c : Thread nD τ).loc main_arg2)) (disK (m ((c : Thread nD τ).loc main_arg1))))
    (disK (m ((c : Thread nD τ).loc main_arg1))) (rowK (m ((c : Thread nD τ).loc main_arg1))) (colK (m ((c : Thread nD τ).loc main_arg1)))
    (m ((c : Thread nD τ).loc main_arg3))

/-- What the lines after the region leave in the result buffer. -/
theorem tail_eq (c : Dev nD) : Pipeline.afterTail₀ cfgs (dats m) 0 (V0 m) [hostOps1] c main_v34 = result m c := by
  unfold Pipeline.afterTail₀
  show StableHlo.after hostOps1 _ (Proc.devRef .tc main_v34) = _
  rw [tail_of]
  have h18 := (Pipeline.withArrays_arr spec0 launch0.win.arr_inj c (V0 m c) (fun w => (dats m 0 c).arrAt w cfg0.N) 3).trans (final m c)
  have h16 := (Pipeline.withArrays_of_ne spec0 c (V0 m c) (fun w => (dats m 0 c).arrAt w cfg0.N) main_v16
    (by exact (by decide : ∀ w, Pipeline.arrRef spec0 w ≠ main_v16))).trans (V_dis m c)
  have h3 := (Pipeline.withArrays_of_ne spec0 c (V0 m c) (fun w => (dats m 0 c).arrAt w cfg0.N) main_v3
    (by exact (by decide : ∀ w, Pipeline.arrRef spec0 w ≠ main_v3))).trans (V_row m c)
  have h6 := (Pipeline.withArrays_of_ne spec0 c (V0 m c) (fun w => (dats m 0 c).arrAt w cfg0.N) main_v6
    (by exact (by decide : ∀ w, Pipeline.arrRef spec0 w ≠ main_v6))).trans (V_col m c)
  have hb := (Pipeline.withArrays_of_ne spec0 c (V0 m c) (fun w => (dats m 0 c).arrAt w cfg0.N) main_arg3
    (by exact (by decide : ∀ w, Pipeline.arrRef spec0 w ≠ main_arg3))).trans (V_main_arg3 m c)
  unfold result
  exact congr (congr (congr (congr (congrArg kerTail h18) h16) h3) h6) hb

/-- THE RUN: every weakly fair execution terminates with the result buffer at `result` and the arguments unchanged. -/
theorem run : θ_run defs (onTc (τ := τ) (main (F := Ideal))) ⟨m, fun _ => 0, ρ⟩ (fun r => ∀ c : Dev nD,
      r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v34 (Pipeline.mem_restRefs_of main_v34 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Cert.KernelIdeal.KRun

end
-- ==== Proof.lean ====
/-
  A graph-convolution layer: `out = D^{-1/2} (A + I) D^{-1/2} (x · W) + b`, with `A` given as an edge list and `D` the
  in-degrees (self-loops counted). For every node `j` and channel `c`,

      out[j, c] = Σ_{e : col e = j} (x · W)[row e, c] · dis[row e] · dis[col e] + b[c],     dis = D^{-1/2}.

  The reference computes exactly this: it gathers the features of every edge's source, weighs them by the two scales
  and scatter-adds them by target. The kernel scales the features row by row inside the matrix product (`hs[i, ·] =
  (x · W)[i, ·] · dis[i]`, block of 5000 nodes by block), gathers and scatter-adds `hs`, and multiplies node `j`'s sum by
  `dis[j]` afterwards. The two agree because inside node `j`'s sum `dis[col e]` is the constant `dis[j]`, and a
  nonnegative real factor moves across a sum of extended reals whatever the summands are — so the claim needs no
  finiteness of `x`, `W` or `b`, and holds for every edge list (an edge whose target is outside `[0, N)` is dropped
  by both programs; a source outside it is wrapped and clamped by both in the same way).

  The three frames: the two kernels' are the generated frame certificates; the reference's is its run with the result
  dropped. The idealization rewrote nothing, so `preserves` is `True`.
-/
import proofs.«149455_j3478923510413_2_alg».proof.Defs
import proofs.«149455_j3478923510413_2_alg».proof.Proof.Gen.Kernel
import proofs.«149455_j3478923510413_2_alg».proof.Proof.Gen.Kernel.Skeleton
import proofs.«149455_j3478923510413_2_alg».proof.Proof.Gen.Kernel.Launch
import proofs.«149455_j3478923510413_2_alg».proof.Proof.Gen.Kernel.Points
import proofs.«149455_j3478923510413_2_alg».proof.Proof.Gen.Kernel.Frame
import proofs.«149455_j3478923510413_2_alg».proof.Proof.Gen.KernelIdeal
import proofs.«149455_j3478923510413_2_alg».proof.Proof.Gen.KernelIdeal.Skeleton
import proofs.«149455_j3478923510413_2_alg».proof.Proof.Gen.KernelIdeal.Launch
import proofs.«149455_j3478923510413_2_alg».proof.Proof.Gen.KernelIdeal.Points
import proofs.«149455_j3478923510413_2_alg».proof.Proof.Gen.KernelIdeal.Frame
import proofs.«149455_j3478923510413_2_alg».proof.Proof.Gen.ReferenceIdeal
import proofs.«149455_j3478923510413_2_alg».proof.Proof.Gen.Pre_finite_inputs
import proofs.«149455_j3478923510413_2_alg».proof.Proof.RefRun
import proofs.«149455_j3478923510413_2_alg».proof.Proof.RefValue
import proofs.«149455_j3478923510413_2_alg».proof.Proof.KernelRun
import proofs.«149455_j3478923510413_2_alg».proof.Proof.Tails
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The reference's result, at arguments that agree with the kernel's, is the kernel's result. -/
theorem algebraic : Cert.algebraic_KernelIdeal_ReferenceIdeal := by
  intro m ρ m' ρ' _ hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.res_eq, (hagree c).1, (hagree c).2.1, (hagree c).2.2.1, (hagree c).2.2.2,
    Cert.RefFeat.dot_eq_feat, Cert.ReferenceIdeal.RefValue.disR_eq, Cert.ReferenceIdeal.RefValue.rowR_eq,
    Cert.ReferenceIdeal.RefValue.colR_eq]
  exact (Cert.Tails.tails_agree _ _ _ _ _ _ (Cert.KernelIdeal.HostSide.disK_bounds _) (fun _ => rfl)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
